-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x256 : Shape := ⟨3, ![4, 1024, 256]⟩
abbrev S8192x256 : Shape := ⟨2, ![8192, 256]⟩
abbrev S_ : Shape := ⟨0, ![]⟩

class Facts : Prop where
  bcast_S_S4x1024x256 : S_.BroadcastsInDim S4x1024x256 (![] : Fin 0 → Fin S4x1024x256.rank)
  reducesTo_S4x1024x256_S_d0_1_2 : S4x1024x256.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S4x1024x256 .f32) (main_arg1 : FVec F S8192x256 .f32) : IVec S_ 1 :=
  let main_v0 : FVec F S4x1024x256 .f32 := Host.absf main_arg0
  let main_cst : FVec F S_ .f32 := constant S_ .f32 0x7F800000#32
  let main_v1 : FVec F S4x1024x256 .f32 := broadcastInDim S4x1024x256 ![] bcast_S_S4x1024x256 main_cst
  let main_v2 : IVec S4x1024x256 1 := cmpf .olt main_v0 main_v1
  let main_c : IVec S_ 1 := constantI S_ 1 1#1
  let main_v3 : IVec S_ 1 := (fun x v => Host.reduce IntOp.andi x v reducesTo_S4x1024x256_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S4x1024x256 : Shape := ⟨3, ![4, 1024, 256]⟩
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S1x8192 : Shape := ⟨2, ![1, 8192]⟩
abbrev S4096x8192 : Shape := ⟨2, ![4096, 8192]⟩
abbrev S256x256 : Shape := ⟨2, ![256, 256]⟩
abbrev S256x8192 : Shape := ⟨2, ![256, 8192]⟩
abbrev S256x512 : Shape := ⟨2, ![256, 512]⟩
abbrev S1x512 : Shape := ⟨2, ![1, 512]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S4x1024x256, .f32⟩
  | .hbm, ⟨1, _⟩ => ⟨S8192x256, .f32⟩
  | .hbm, ⟨2, _⟩ => ⟨S4096x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S4096x8192, .f32⟩
  | .local _ .vmem, ⟨0, _⟩ => ⟨S256x256, .f32⟩
  | .local _ .vmem, ⟨1, _⟩ => ⟨S256x256, .f32⟩
  | .local _ .vmem, ⟨2, _⟩ => ⟨S8192x256, .f32⟩
  | .local _ .vmem, ⟨3, _⟩ => ⟨S1x8192, .f32⟩
  | .local _ .vmem, ⟨4, _⟩ => ⟨S256x8192, .f32⟩
  | .local _ .vmem, ⟨5, _⟩ => ⟨S256x8192, .f32⟩
  | _, _ => ⟨S4x1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S4x1024x256_S4096x256 : S4x1024x256.ShapeCasts S4096x256
  reducesTo_S8192x256_S8192_d1 : S8192x256.ReducesTo [1] S8192
  h_S_ : 0 < S_.numel
  bcast_S8192_S1x8192_1 : S8192.BroadcastsInDim S1x8192 (![1] : Fin 1 → Fin S1x8192.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8192x256_S8192x256_0_0 : ∀ a, (![0, 0] : Fin 2 → Nat) a + S8192x256.size a ≤ S8192x256.size a
  h_S8192x256 : 0 < S8192x256.numel
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  slices_S256x8192_o0_0_S256x512 : S256x8192.Slices ![0, 0] S256x512
  slices_S1x8192_o0_0_S1x512 : S1x8192.Slices ![0, 0] S1x512
  broadcasts_S1x512_S256x512 : S1x512.Broadcasts S256x512
  reduces_S256x512_S256 : S256x512.Reduces [1] S256
  shapeCasts_S256_S256x1 : S256.ShapeCasts S256x1
  broadcasts_S1x8192_S256x8192 : S1x8192.Broadcasts S256x8192
  broadcasts_S256x1_S256x8192 : S256x1.Broadcasts S256x8192
  reduces_S256x8192_S256 : S256x8192.Reduces [1] S256
  inb_S256x8192_S256x8192_0_0 : ∀ a, (![0, 0] : Fin 2 → Nat) a + S256x8192.size a ≤ S256x8192.size a
  h_S256x8192 : 0 < S256x8192.numel
  dot_S256x256_S8192x256_S256x8192_1_1_0_0_n_n_wf : DotDims.WF S256x256 S8192x256 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S4096x256.size a
  hwx0_0 : ∀ i : grid0.Coords, EltTy.bits .f32 = 32 ∨ (Rect.block (s := S4096x256) S256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .f32 = 32 ∨ (Rect.block (s := S8192x256) S8192x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .f32 = 32 ∨ (Rect.block (s := S1x8192) S1x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x8192.size a ≤ S4096x8192.size a
  hwx0_3 : ∀ i : grid0.Coords, EltTy.bits .f32 = 32 ∨ (Rect.block (s := S4096x8192) S256x8192.size (cc0_transform_3 i) (hinb0_3 i)).WholeWords (EltTy.packing .f32)

variable [Facts₀]

def dot_S256x256_S8192x256_S256x8192_1_1_0_0_n_n : DotDims S256x256 S8192x256 S256x8192 where
  lhsContracting := [1]
  rhsContracting := [1]
  lhsNonContracting := [0]
  rhsNonContracting := [0]
  lhsBatch := []
  rhsBatch := []
  wf := dot_S256x256_S8192x256_S256x8192_1_1_0_0_n_n_wf

abbrev win0_0 : Pipeline.Window sig grid0 :=
  Pipeline.Window.ofSpec (Memref.whole main_v0) S256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S256x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x1024x256 : Shape := ⟨3, ![4, 1024, 256]⟩
abbrev S8192x256 : Shape := ⟨2, ![8192, 256]⟩
abbrev S4096x256 : Shape := ⟨2, ![4096, 256]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S256x8192 : Shape := ⟨2, ![256, 8192]⟩

abbrev nBuf : Space → Nat
  | .hbm => 37
  | .vmem => 0
  | .smem => 0
  | _ => 0

abbrev bufTy : (tb : Table) → Fin (tcTables nBuf tb) → BufTy
  | .hbm, ⟨0, _⟩ => ⟨S4x1024x256, .f32⟩
  | .hbm, ⟨1, _⟩ => ⟨S8192x256, .f32⟩
  | .hbm, ⟨2, _⟩ => ⟨S4096x256, .f32⟩
  | .hbm, ⟨3, _⟩ => ⟨S8192x256, .f32⟩
  | .hbm, ⟨4, _⟩ => ⟨S_, .f32⟩
  | .hbm, ⟨5, _⟩ => ⟨S8192, .f32⟩
  | .hbm, ⟨6, _⟩ => ⟨S4096x256, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S1x8192, .f32⟩
  | .hbm, ⟨11, _⟩ => ⟨S4096x8192, .f32⟩
  | .hbm, ⟨12, _⟩ => ⟨S4096x8192, .f32⟩
  | .hbm, ⟨13, _⟩ => ⟨S4096x8192, .f32⟩
  | .hbm, ⟨14, _⟩ => ⟨S256x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S_, .f32⟩
  | .hbm, ⟨24, _⟩ => ⟨S4096, .f32⟩
  | .hbm, ⟨25, _⟩ => ⟨S_, .f32⟩
  | .hbm, ⟨26, _⟩ => ⟨S4096, .f32⟩
  | .hbm, ⟨27, _⟩ => ⟨S4096, .f32⟩
  | .hbm, ⟨28, _⟩ => ⟨S4096x1, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S_, .f32⟩
  | .hbm, ⟨33, _⟩ => ⟨S4096, .f32⟩
  | .hbm, ⟨34, _⟩ => ⟨S4096x1, .f32⟩
  | .hbm, ⟨35, _⟩ => ⟨S4096x8192, .f32⟩
  | .hbm, ⟨36, _⟩ => ⟨S4096x8192, .f32⟩
  | _, _ => ⟨S4x1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩

abbrev nD : Nat := 1
abbrev τ : Topo := Topo.v7x

variable {F : FTy → Type} [FloatOps F]

class Facts₀ : Prop where
  shapeCasts_S4x1024x256_S4096x256 : S4x1024x256.ShapeCasts S4096x256
  reducesTo_S8192x256_S8192_d1 : S8192x256.ReducesTo [1] S8192
  h_S_ : 0 < S_.numel
  reducesTo_S4096x256_S4096_d1 : S4096x256.ReducesTo [1] S4096
  bcast_S4096_S4096x1_0 : S4096.BroadcastsInDim S4096x1 (![0] : Fin 1 → Fin S4096x1.rank)
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  bcast_S4096x1_S4096x8192_0_1 : S4096x1.BroadcastsInDim S4096x8192 (![0, 1] : Fin 2 → Fin S4096x8192.rank)
  transposes_S8192x256_S256x8192_1_0 : S8192x256.Transposes [1, 0] S256x8192
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  dot_S4096x256_S256x8192_S4096x8192_1_0_0_1_n_n_wf : DotDims.WF S4096x256 S256x8192 S4096x8192 [1] [0] [0] [1] [] []

variable [Facts₀]

def dot_S4096x256_S256x8192_S4096x8192_1_0_0_1_n_n : DotDims S4096x256 S256x8192 S4096x8192 where
  lhsContracting := [1]
  rhsContracting := [0]
  lhsNonContracting := [0]
  rhsNonContracting := [1]
  lhsBatch := []
  rhsBatch := []
  wf := dot_S4096x256_S256x8192_S4096x8192_1_0_0_1_n_n_wf

class Facts : Prop extends Facts₀ where

variable [Facts]
-- ==== Proof.LibRealSoftmax.lean ====
/-
  Real numbers inside the extended reals, for softmax-like kernels.

  * Finite sums and maxima of real numbers, computed in the extended reals, are real numbers (the maximum over a
    nonempty range, folded from `-∞`).
  * An extended real whose absolute value `max a (-a)` is below `+∞` is a real number; so is one that passes the
    entrywise test `|a| < +∞` of a finiteness precondition.
  * A softmax does not change when one number is subtracted from every logit: `exp (a - t) = exp a * exp (-t)`, and the
    common factor cancels between an entry and the total. Multiplying by the reciprocal of the total is dividing by it.
  * The single-precision words of 1, -1, 2, 64, `+∞` and `-∞`, as extended reals.
-/
import Idealize.ShloMosaic.PureOps.Ideal
import Idealize.ShloMosaic.PureOps.Ideal.Laws

noncomputable section

namespace Cert.LibRealSoftmax

open Idealize.ShloMosaic

/-! ## The constants, as real numbers -/

/-- The word `0x3F800000` is 1. -/
theorem word_one : Ideal.ofBits .f32 0x3F800000#32 = ((1 : ℝ) : EReal) := by
  simp [Ideal.ofBits, Ideal.ieee]
  norm_cast
  norm_num
/-- The word `0xBF800000` is -1. -/
theorem word_negOne : Ideal.ofBits .f32 0xBF800000#32 = ((-1 : ℝ) : EReal) := by
  simp [Ideal.ofBits, Ideal.ieee]
  norm_cast
  norm_num
/-- The word `0x40000000` is 2. -/
theorem word_two : Ideal.ofBits .f32 0x40000000#32 = ((2 : ℝ) : EReal) := by
  simp [Ideal.ofBits, Ideal.ieee]
  norm_cast
  norm_num
/-- The word `0x42800000` is 64. -/
theorem word_sixtyFour : Ideal.ofBits .f32 0x42800000#32 = ((64 : ℝ) : EReal) := by
  simp [Ideal.ofBits, Ideal.ieee]
  norm_cast
  norm_num
/-- The word `0xFF800000` is `-∞`. -/
theorem word_negInf : Ideal.ofBits .f32 0xFF800000#32 = (⊥ : EReal) := by
  simp [Ideal.ofBits, Ideal.ieee]
/-- The word `0x7F800000` is `+∞`. -/
theorem word_posInf : Ideal.ofBits .f32 0x7F800000#32 = (⊤ : EReal) := by
  simp [Ideal.ofBits, Ideal.ieee]

/-! ## Finite sums and maxima of real numbers, inside the extended reals -/

/-- A finite sum of real numbers, computed in the extended reals, is the real sum. -/
theorem sum_coe {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The larger of two real numbers, compared in the extended reals, is the real maximum. -/
theorem max_coe (x y : ℝ) : max (x : EReal) (y : EReal) = ((max x y : ℝ) : EReal) := by
  rcases le_total x y with h | h
  · rw [max_eq_right h, max_eq_right (EReal.coe_le_coe_iff.2 h)]
  · rw [max_eq_left h, max_eq_left (EReal.coe_le_coe_iff.2 h)]

/-- The maximum of finitely many real numbers over a nonempty range, folded from `-∞`, is a real number. -/
theorem fold_max_real {ι : Type} (s : Finset ι) (f : ι → ℝ) (hs : s.Nonempty) :
    ∃ μ : ℝ, s.fold max (⊥ : EReal) (fun i => ((f i : ℝ) : EReal)) = (μ : EReal) := by
  classical
  have key : ∀ s : Finset ι, (s.fold max (⊥ : EReal) (fun i => ((f i : ℝ) : EReal)) = ⊥ ∧ s = ∅)
      ∨ ∃ μ : ℝ, s.fold max (⊥ : EReal) (fun i => ((f i : ℝ) : EReal)) = (μ : EReal) := by
    intro s
    induction s using Finset.induction_on with
    | empty => exact Or.inl ⟨Finset.fold_empty, rfl⟩
    | insert a s ha ih =>
      right
      rw [Finset.fold_insert ha]
      rcases ih with ⟨h, -⟩ | ⟨μ, h⟩
      · exact ⟨f a, by rw [h]; exact max_eq_left bot_le⟩
      · exact ⟨max (f a) μ, by rw [h, max_coe]⟩
  rcases key s with ⟨-, h⟩ | h
  · exact absurd h hs.ne_empty
  · exact h

/-! ## A finite entry is a real number -/

/-- An extended real with absolute value below `+∞` is a real number. -/
theorem real_of_abs_lt_top (a : EReal) (h : max a (-a) < ⊤) : ∃ r : ℝ, a = (r : EReal) := by
  by_cases ht : a = ⊤
  · subst ht; simp at h
  by_cases hb : a = ⊥
  · subst hb; simp at h
  exact ⟨a.toReal, (EReal.coe_toReal ht hb).symm⟩

/-- The entrywise test `|a| < +∞` of a finiteness precondition, passed: the entry is a real number. -/
theorem real_of_test (a : EReal)
    (h : Ideal.cmp .olt (max a (-a)) (Ideal.ofBits .f32 0x7F800000#32) = 1#1) : ∃ r : ℝ, a = (r : EReal) := by
  rw [word_posInf] at h
  refine real_of_abs_lt_top a ?_
  by_contra hn
  simp [Ideal.cmp, hn] at h

/-! ## Shift invariance of the softmax, on the reals -/

/-- Subtracting `μ` from every logit, or `δ + ν` from every logit, gives the same softmax; and multiplying by the
    reciprocal of the total is dividing by it. -/
theorem softmax_shift_real {N : ℕ} (a : Fin N → ℝ) (δ μ ν : ℝ) (j : Fin N) :
    Real.exp (a j - μ) * (1 / ∑ l, Real.exp (a l - μ)) = Real.exp (a j - δ - ν) / ∑ l, Real.exp (a l - δ - ν) := by
  have hS : 0 < ∑ l, Real.exp (a l) := Finset.sum_pos (fun l _ => Real.exp_pos _) ⟨j, Finset.mem_univ _⟩
  have h1 : ∀ t : ℝ, ∑ l, Real.exp (a l - t) = (∑ l, Real.exp (a l)) * Real.exp (-t) := by
    intro t
    rw [Finset.sum_mul]
    refine Finset.sum_congr rfl fun l _ => ?_
    rw [← Real.exp_add, sub_eq_add_neg]
  have h2 : ∀ l, a l - δ - ν = a l - (δ + ν) := fun l => by ring
  simp only [h2, h1]
  rw [sub_eq_add_neg (a j) μ, sub_eq_add_neg (a j) (δ + ν), Real.exp_add, Real.exp_add]
  have e1 : Real.exp (-μ) ≠ 0 := (Real.exp_pos _).ne'
  have e2 : Real.exp (-(δ + ν)) ≠ 0 := (Real.exp_pos _).ne'
  have e3 : (∑ l, Real.exp (a l)) ≠ 0 := hS.ne'
  field_simp

end Cert.LibRealSoftmax

end
-- ==== Proof.SoftmaxShift.lean ====
/-
  Two arrangements of one row of a codebook soft-assignment, and why they agree.

  For a row vector `x` (length `K`) and code vectors `c_l` (`N` of them), put `L l = 2 <x, c_l> - |c_l|^2`. The row
  of probabilities is the softmax of `L`: `exp (L j) / sum_l exp (L l)`.

  * One arrangement forms `L l` as `sum_k (x_k * 2) * c_lk - |c_l|^2`, shifts it by `b = max over the first M codes
    of L + 64`, and returns `exp (L j - b) * (1 / sum_l exp (L l - b))`.
  * The other forms the negated squared distance `-((|c_l|^2 + |x|^2) - 2 * sum_k x_k * c_lk) = L l - |x|^2`, shifts it
    by its maximum over all codes, and returns `exp (.) / sum_l exp (.)`.

  On real numbers a softmax does not change when the same number is subtracted from every logit: `exp (a - t)` is
  `exp a * exp (-t)`, and the factor `exp (-t)` cancels between numerator and denominator. Both the row constant
  `|x|^2` and the two different shifts are such numbers, so the two arrangements are equal. The extended reals enter only
  through the entries: once every entry of `x` and of the codes is a real number, every intermediate value is a real
  (a finite sum of products, a maximum of finitely many reals over a nonempty range, an exponential, a positive sum), and
  the identity is the real one.
-/
import proofs.«156026_g54752243089899_cont_9to1c4b_244_30_alg».proof.Proof.LibRealSoftmax
import Idealize.ShloMosaic.PureOps.Ideal
import Idealize.ShloMosaic.PureOps.Ideal.Laws

noncomputable section

namespace Cert.VqSoftmax

open Idealize.ShloMosaic Cert.LibRealSoftmax

/-! ## The two arrangements, over the extended reals -/

variable {K N M : ℕ}

/-- The squared length of code `l`, summed from zero. -/
def codeSq (C : Fin N → Fin K → EReal) (l : Fin N) : EReal :=
  Ideal.ofBits .f32 0x00000000#32 + ∑ k, C l k * C l k

/-- First arrangement: the logit of code `l`, from the doubled row and a given table `Q` of squared lengths. -/
def kLogit (X : Fin K → EReal) (C : Fin N → Fin K → EReal) (Q : Fin N → EReal) (l : Fin N) : EReal :=
  (∑ k, (X k * Ideal.ofBits .f32 0x40000000#32) * C l k) - Q l

/-- Its shift: the maximum of the logits over the codes `emb 0, …, emb (M-1)`, plus 64. -/
def kShift (emb : Fin M → Fin N) (X : Fin K → EReal) (C : Fin N → Fin K → EReal) (Q : Fin N → EReal) : EReal :=
  (Finset.univ : Finset (Fin M)).fold max (Ideal.ofBits .f32 0xFF800000#32) (fun q => kLogit X C Q (emb q))
    + Ideal.ofBits .f32 0x42800000#32

def kExp (emb : Fin M → Fin N) (X : Fin K → EReal) (C : Fin N → Fin K → EReal) (Q : Fin N → EReal) (l : Fin N) : EReal :=
  Ideal.exp (kLogit X C Q l - kShift emb X C Q)

/-- First arrangement: the exponential times the reciprocal of the row total. -/
def kOut (emb : Fin M → Fin N) (X : Fin K → EReal) (C : Fin N → Fin K → EReal) (Q : Fin N → EReal) (j : Fin N) : EReal :=
  kExp emb X C Q j * Ideal.div (Ideal.ofBits .f32 0x3F800000#32) (∑ l, kExp emb X C Q l)

/-- Second arrangement: the negated squared distance from the row to code `l`. -/
def rLogit (X : Fin K → EReal) (C : Fin N → Fin K → EReal) (l : Fin N) : EReal :=
  ((codeSq C l + (Ideal.ofBits .f32 0x00000000#32 + ∑ k, X k * X k))
      - Ideal.ofBits .f32 0x40000000#32 * ∑ k, X k * C l k) * Ideal.ofBits .f32 0xBF800000#32

/-- Its shift: the maximum over all codes (folded from `-∞`, then compared with `-∞` once more). -/
def rShift (X : Fin K → EReal) (C : Fin N → Fin K → EReal) : EReal :=
  max (Ideal.ofBits .f32 0xFF800000#32)
    ((Finset.univ : Finset (Fin N)).fold max (Ideal.ofBits .f32 0xFF800000#32) (fun l => rLogit X C l))

def rExp (X : Fin K → EReal) (C : Fin N → Fin K → EReal) (l : Fin N) : EReal :=
  Ideal.exp (rLogit X C l - rShift X C)

/-- Second arrangement: the exponential divided by the row total (summed from zero). -/
def rOut (X : Fin K → EReal) (C : Fin N → Fin K → EReal) (j : Fin N) : EReal :=
  Ideal.div (rExp X C j) (Ideal.ofBits .f32 0x00000000#32 + ∑ l, rExp X C l)

/-- For a row and codes with real entries the two arrangements are the same number. -/
theorem kOut_eq_rOut (emb : Fin M → Fin N) (hM : 0 < M) (X : Fin K → EReal) (C : Fin N → Fin K → EReal)
    (hX : ∀ k, ∃ r : ℝ, X k = (r : EReal)) (hC : ∀ l k, ∃ r : ℝ, C l k = (r : EReal)) (j : Fin N) :
    kOut emb X C (codeSq C) j = rOut X C j := by
  choose x hx using hX
  choose c hc using hC
  let a : Fin N → ℝ := fun l => (∑ k, x k * 2 * c l k) - ∑ k, c l k * c l k
  let δ : ℝ := ∑ k, x k * x k
  have hkL : ∀ l, kLogit X C (codeSq C) l = ((a l : ℝ) : EReal) := by
    intro l
    simp only [kLogit, codeSq, hx, hc, word_two, Ideal.ofBits_zero_f32, zero_add, ← EReal.coe_mul, sum_coe,
      ← EReal.coe_sub, a]
  have hrL : ∀ l, rLogit X C l = ((a l - δ : ℝ) : EReal) := by
    intro l
    simp only [rLogit, codeSq, hx, hc, word_two, word_negOne, Ideal.ofBits_zero_f32, zero_add, ← EReal.coe_mul,
      sum_coe, ← EReal.coe_sub, ← EReal.coe_add]
    refine congrArg _ ?_
    have h2 : ∑ k, x k * 2 * c l k = 2 * ∑ k, x k * c l k := by
      rw [Finset.mul_sum]; exact Finset.sum_congr rfl fun k _ => by ring
    show _ = (∑ k, x k * 2 * c l k) - (∑ k, c l k * c l k) - ∑ k, x k * x k
    rw [h2]; ring
  obtain ⟨μ0, hμ0⟩ := fold_max_real (Finset.univ : Finset (Fin M)) (fun q => a (emb q)) ⟨⟨0, hM⟩, Finset.mem_univ _⟩
  obtain ⟨ν0, hν0⟩ := fold_max_real (Finset.univ : Finset (Fin N)) (fun l => a l - δ) ⟨j, Finset.mem_univ _⟩
  have hkS : kShift emb X C (codeSq C) = ((μ0 + 64 : ℝ) : EReal) := by
    simp only [kShift, hkL, word_negInf, word_sixtyFour, hμ0, ← EReal.coe_add]
  have hrS : rShift X C = ((ν0 : ℝ) : EReal) := by
    simp only [rShift, hrL, word_negInf, hν0]
    exact max_eq_right bot_le
  have hkE : ∀ l, kExp emb X C (codeSq C) l = ((Real.exp (a l - (μ0 + 64)) : ℝ) : EReal) := by
    intro l; simp only [kExp, hkL, hkS, ← EReal.coe_sub, Ideal.exp_coe]
  have hrE : ∀ l, rExp X C l = ((Real.exp (a l - δ - ν0) : ℝ) : EReal) := by
    intro l; simp only [rExp, hrL, hrS, ← EReal.coe_sub, Ideal.exp_coe]
  have hSk : (∑ l, Real.exp (a l - (μ0 + 64))) ≠ 0 :=
    (Finset.sum_pos (fun l _ => Real.exp_pos _) ⟨j, Finset.mem_univ _⟩).ne'
  have hSr : (∑ l, Real.exp (a l - δ - ν0)) ≠ 0 :=
    (Finset.sum_pos (fun l _ => Real.exp_pos _) ⟨j, Finset.mem_univ _⟩).ne'
  simp only [kOut, rOut, hkE, hrE, sum_coe, word_one, Ideal.ofBits_zero_f32, zero_add]
  rw [Ideal.div_coe hSk, Ideal.div_coe hSr, ← EReal.coe_mul, ← EReal.coe_mul, ← EReal.coe_mul]
  refine congrArg _ ?_
  rw [one_mul, softmax_shift_real a δ (μ0 + 64) ν0 j, div_eq_mul_one_div]

end Cert.VqSoftmax

end
-- ==== Proof.Spec.lean ====
/-
  The soft assignment of every row to every code, as one function of the two arrays.

  `X` is the 4096-by-256 matrix of row vectors and `C` the 8192-by-256 matrix of codes. Entry `(r, j)` of the result is
  the first arrangement of SoftmaxShift (`kOut`) of row `r` of `X` against the codes, with the squared lengths of the
  codes as the table, and the maximum taken over the first 512 codes.

  Both programs prepare the table of squared lengths the same way before anything else: the entrywise square of `C`,
  summed along each row from zero, laid out as one row of 8192 numbers. Read at code `l` it is `codeSq`.
-/
import proofs.«156026_g54752243089899_cont_9to1c4b_244_30_alg».proof.Proof.SoftmaxShift
import Idealize.ShloMosaic.Lib.ValueIdx
import Idealize.ShloMosaic.Lib.Pipeline.Value
import Idealize.ShloMosaic.PureOps.Ideal.Laws

noncomputable section

namespace Cert.VqSoftmax

open Idealize.ShloMosaic Idealize.ShloMosaic.ValueIdx

/-- The first 512 of the 8192 codes. -/
def first512 : Fin 512 → Fin 8192 := fun q => ⟨q.val, by have := q.isLt; omega⟩

/-- The codes as a family of vectors. -/
def codes (C : (⟨2, ![8192, 256]⟩ : Shape).Idx → EReal) : Fin 8192 → Fin 256 → EReal := fun l k => C (ix2 l k)

/-- Row `r` of the matrix of row vectors. -/
def rowOf (X : (⟨2, ![4096, 256]⟩ : Shape).Idx → EReal) (r : Fin 4096) : Fin 256 → EReal := fun k => X (ix2 r k)

/-- The probability that row `r` is assigned to code `j`. -/
def assign (X : (⟨2, ![4096, 256]⟩ : Shape).Idx → EReal) (C : (⟨2, ![8192, 256]⟩ : Shape).Idx → EReal)
    (r : Fin 4096) (j : Fin 8192) : EReal :=
  kOut first512 (rowOf X r) (codes C) (codeSq (codes C)) j

/-- The whole 4096-by-8192 array of probabilities. -/
def G (X : (⟨2, ![4096, 256]⟩ : Shape).Idx → EReal) (C : (⟨2, ![8192, 256]⟩ : Shape).Idx → EReal) :
    (⟨2, ![4096, 8192]⟩ : Shape).Idx → EReal :=
  fun i => assign X C ⟨(i 0).val, (i 0).isLt⟩ ⟨(i 1).val, (i 1).isLt⟩

theorem G_ix2 (X : (⟨2, ![4096, 256]⟩ : Shape).Idx → EReal) (C : (⟨2, ![8192, 256]⟩ : Shape).Idx → EReal)
    (r : Fin 4096) (j : Fin 8192) : G X C (ix2 r j) = assign X C r j := rfl

/-- The one-row table of squared lengths — the square of `C` summed along its rows from zero, laid out as a row — read
    at code `l`. -/
theorem codeSq_row_apply (C : FVec Ideal ⟨2, ![8192, 256]⟩ .f32)
    (hb : (⟨1, ![8192]⟩ : Shape).BroadcastsInDim ⟨2, ![1, 8192]⟩ (![1] : Fin 1 → Fin 2))
    (hr : (⟨2, ![8192, 256]⟩ : Shape).ReducesTo [1] ⟨1, ![8192]⟩) (hu : 0 < (⟨0, ![]⟩ : Shape).numel) (l : Fin 8192) :
    broadcastInDim ⟨2, ![1, 8192]⟩ ![1] hb
        (Host.reduceAdd (F := Ideal) (mulf C C) (constant (F := Ideal) ⟨0, ![]⟩ .f32 0x00000000#32) hr hu)
        (ix2 (0 : Fin 1) l)
      = codeSq (codes C) l := by
  rw [broadcastInDim_apply _ hb _ (ix2 (0 : Fin 1) l) (ix1 l) (fun a => by
    match a with
    | ⟨0, _⟩ => show l.val = if (8192 : ℕ) = 1 then 0 else l.val; rw [if_neg (by decide)])]
  simp only [Host.reduceAdd, Ideal.hostReduceAdd_def]
  rw [Ideal.hostReduceAdd_single hr (by decide)]
  unfold codeSq codes
  refine congrArg (_ + ·) (Finset.sum_congr rfl fun k _ => ?_)
  exact congrArg (mulf C C) (funext fun a => Fin.ext (by match a with | ⟨0, _⟩ => rfl | ⟨1, _⟩ => rfl))

/-- A cast of an array to another shape holds only entries of the array. -/
theorem shapeCast_entry_real {s t : Shape} (x : s.Idx → EReal) (h : s.ShapeCasts t)
    (hx : ∀ i, ∃ r : ℝ, x i = (r : EReal)) (j : t.Idx) : ∃ r : ℝ, shapeCast t x h j = (r : EReal) := by
  unfold shapeCast
  exact hx _

end Cert.VqSoftmax

end
-- ==== Proof.LibColumn.lean ====
/-
  Layout operations on a COLUMN, read at an index: a vector `[a]` viewed as a one-column matrix `[a, 1]`, a
  one-column matrix broadcast along its rows to `[a, b]`, and a `[1, 1, a]` array viewed as one row `[1, a]`.
  (The row forms — `[1, b] → [a, b]`, a leading unit axis added or dropped — are in the library; these are their
  column counterparts, which every row reduction that keeps its axis meets.) Also: the comparison of two row
  indices below `2^32`, as 32-bit words, is the comparison of the indices.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, 1, a]` array cast to `[1, a]` reads, at `(u, i)`, the operand at `(0, 0, i)`. -/
theorem shapeCast_11a_1a_apply {a : ℕ} (x : (⟨3, ![1, 1, a]⟩ : Shape).Idx → α) (h : (⟨3, ![1, 1, a]⟩ : Shape).ShapeCasts ⟨2, ![1, a]⟩)
    (u : Fin 1) (i : Fin a) : shapeCast ⟨2, ![1, a]⟩ x h (ix2 u i) = x (ix3 (0 : Fin 1) (0 : Fin 1) i) :=
  shapeCast_apply x h _ _ (by
    have hu : u.val = 0 := by omega
    rw [Shape.rowMajor_val_three, Shape.rowMajor_val_two]
    show (0 * 1 + 0) * a + i.val = u.val * a + i.val
    rw [hu])

/-- Two indices below `2^32` are equal exactly when their 32-bit words are: the word of the comparison is `1` on
    the diagonal and `0` off it. -/
theorem cmpi_eq_ofNat {n : ℕ} (hn : n ≤ 2 ^ 32) (l k : Fin n) :
    IntOp.cmpi .eq (BitVec.ofNat 32 l.val) (BitVec.ofNat 32 k.val) = if l = k then 1#1 else 0#1 := by
  have hl : l.val < 2 ^ 32 := lt_of_lt_of_le l.isLt hn
  have hk : k.val < 2 ^ 32 := lt_of_lt_of_le k.isLt hn
  have hiff : BitVec.ofNat 32 l.val = BitVec.ofNat 32 k.val ↔ l = k := by
    constructor
    · intro h
      have h' := congrArg BitVec.toNat h
      rw [BitVec.toNat_ofNat, BitVec.toNat_ofNat, Nat.mod_eq_of_lt hl, Nat.mod_eq_of_lt hk] at h'
      exact Fin.ext h'
    · rintro rfl; rfl
  unfold IntOp.cmpi
  by_cases h : l = k
  · subst h; simp
  · have hne : ¬ BitVec.ofNat 32 l.val = BitVec.ofNat 32 k.val := fun e => h (hiff.mp e)
    have hb : (BitVec.ofNat 32 l.val == BitVec.ofNat 32 k.val) = false := beq_eq_false_iff_ne.mpr hne
    rw [if_neg h]
    show BitVec.ofBool (BitVec.ofNat 32 l.val == BitVec.ofNat 32 k.val) = 0#1
    rw [hb]
    rfl

end Cert.LibColumn
-- ==== Proof.LibKeepdims.lean ====
/-
  Reductions over one axis of a rank-2 or rank-3 array, and the layout operations that put the reduced axis back as a
  unit axis and spread it again, read at an index written by coordinates, for any extents. A sum over an axis is the
  `Fin`-indexed sum over that axis's coordinates; a maximum is the fold of `max` over them from the accumulator's
  value.
-/
import Idealize.ShloMosaic.Lib.Pipeline.Value
import Idealize.ShloMosaic.Lib.ValueIdx
import Idealize.ShloMosaic.Lib.ValueLayout
import Idealize.ShloMosaic.PureOps.Ideal.Laws

namespace Cert.LibKeepdims

open Idealize.ShloMosaic Idealize.ShloMosaic.ValueIdx

variable {α : Type}

/-! ## Layout -/

/-- An `[a, c]` array cast to `[a, 1, c]` reads, at `(p, u, k)`, the operand at `(p, k)`. -/
theorem shapeCast_ac_a1c_apply {a c : ℕ} (x : (⟨2, ![a, c]⟩ : Shape).Idx → α)
    (h : (⟨2, ![a, c]⟩ : Shape).ShapeCasts ⟨3, ![a, 1, c]⟩) (p : Fin a) (u : Fin 1) (k : Fin c) :
    shapeCast ⟨3, ![a, 1, c]⟩ x h (ix3 p u k) = x (ix2 p k) :=
  shapeCast_apply x h _ _ (by
    have hu : u.val = 0 := by omega
    rw [Shape.rowMajor_val_two, Shape.rowMajor_val_three]
    show p.val * c + k.val = (p.val * 1 + u.val) * c + k.val
    rw [hu, Nat.mul_one, Nat.add_zero])

/-- An `[a, b]` array cast to `[a, b, 1]` reads, at `(p, q, u)`, the operand at `(p, q)`. -/
theorem shapeCast_ab_ab1_apply {a b : ℕ} (x : (⟨2, ![a, b]⟩ : Shape).Idx → α)
    (h : (⟨2, ![a, b]⟩ : Shape).ShapeCasts ⟨3, ![a, b, 1]⟩) (p : Fin a) (q : Fin b) (u : Fin 1) :
    shapeCast ⟨3, ![a, b, 1]⟩ x h (ix3 p q u) = x (ix2 p q) :=
  shapeCast_apply x h _ _ (by
    have hu : u.val = 0 := by omega
    rw [Shape.rowMajor_val_two, Shape.rowMajor_val_three]
    show p.val * b + q.val = (p.val * b + q.val) * 1 + u.val
    rw [hu, Nat.mul_one, Nat.add_zero])

/-- An `[a, 1, c]` array broadcast to `[a, b, c]` reads, at `(p, q, k)`, the operand at `(p, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (k : Fin c) :
    broadcastTo ⟨3, ![a, b, c]⟩ v h (ix3 p q k) = v (ix3 p (0 : Fin 1) k) := by
  refine broadcastTo_apply v h (ix3 p q k) (ix3 p (0 : Fin 1) k) fun ax => ?_
  match ax with
  | ⟨0, _⟩ =>
    show p.val = if a = 1 then 0 else p.val
    split
    · have := p.isLt; omega
    · rfl
  | ⟨1, _⟩ => rfl
  | ⟨2, _⟩ =>
    show k.val = if c = 1 then 0 else k.val
    split
    · have := k.isLt; omega
    · rfl

/-- An `[a, b, 1]` array broadcast to `[a, b, c]` reads, at `(p, q, k)`, the operand at `(p, q, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (p : Fin a) (q : Fin b) (k : Fin c) :
    broadcastTo ⟨3, ![a, b, c]⟩ v h (ix3 p q k) = v (ix3 p q (0 : Fin 1)) := by
  refine broadcastTo_apply v h (ix3 p q k) (ix3 p q (0 : Fin 1)) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl
  | ⟨2, _⟩ => rfl

/-! ## The reduced index with the coordinate put back -/

theorem lift_mid3 {a b c : ℕ} (h : (⟨3, ![a, b, c]⟩ : Shape).Reduces [1] (⟨2, ![a, c]⟩ : Shape)) (p : Fin a) (k : Fin c)
    (q : Fin ((⟨3, ![a, b, c]⟩ : Shape).size 1)) : h.lift (ix2 p k) q = ix3 p (⟨q.val, q.isLt⟩ : Fin b) k := by
  funext ax; apply Fin.ext
  fin_cases ax <;> rfl

theorem lift_last3 {a b c : ℕ} (h : (⟨3, ![a, b, c]⟩ : Shape).Reduces [2] (⟨2, ![a, b]⟩ : Shape)) (p : Fin a) (q : Fin b)
    (k : Fin ((⟨3, ![a, b, c]⟩ : Shape).size 2)) : h.lift (ix2 p q) k = ix3 p q (⟨k.val, k.isLt⟩ : Fin c) := by
  funext ax; apply Fin.ext
  fin_cases ax <;> rfl

theorem lift_last2 {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext ax; apply Fin.ext
  fin_cases ax <;> rfl

/-! ## Sums and maxima over one axis, at the ideal values -/

variable {φ : FTy}

/-- The sum over the middle axis of an `[a, b, c]` array, at `(p, k)`: the sum over `q` of the entries `(p, q, k)`. -/
theorem sum_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.add.neutral φ hφ)
    (p : Fin a) (k : Fin c) :
    multiReduction .add [1] ⟨2, ![a, c]⟩ src acc h hφ hacc (ix2 p k) = ∑ q : Fin b, src (ix3 p q k) :=
  (Ideal.multiReduction_add_single src acc h hφ hacc (ix2 p k)).trans
    (Finset.sum_congr rfl fun q _ => congrArg src (lift_mid3 h p k q))

/-- The sum over the last axis of an `[a, b, c]` array, at `(p, q)`: the sum over `k` of the entries `(p, q, k)`. -/
theorem sum_last3_apply {a b c : ℕ} (src : FVec Ideal ⟨3, ![a, b, c]⟩ φ) (acc : BitVec φ.bits)
    (h : (⟨3, ![a, b, c]⟩ : Shape).Reduces [2] (⟨2, ![a, b]⟩ : Shape)) (hφ : FKind.Formats φ) (hacc : acc = FKind.add.neutral φ hφ)
    (p : Fin a) (q : Fin b) :
    multiReduction .add [2] ⟨2, ![a, b]⟩ src acc h hφ hacc (ix2 p q) = ∑ k : Fin c, src (ix3 p q k) :=
  (Ideal.multiReduction_add_single src acc h hφ hacc (ix2 p q)).trans
    (Finset.sum_congr rfl fun k _ => congrArg src (lift_last3 h p q k))

/-- The sum over the last axis of an `[a, b]` array, at `p`: the sum over `k` of the entries `(p, k)`. -/
theorem sum_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (lift_last2 h p k))

/-- The maximum over the middle axis of an `[a, b, c]` array, at `(p, k)`: the fold of `max`, from the accumulator's
    value, over the entries `(p, q, k)`. -/
theorem max_mid3_apply {a b c : ℕ} (src : FVec Ideal ⟨3, ![a, b, c]⟩ φ) (acc : BitVec φ.bits)
    (h : (⟨3, ![a, b, c]⟩ : Shape).Reduces [1] (⟨2, ![a, c]⟩ : Shape)) (hφ : FKind.Formats φ) (hacc : acc = FKind.maximumf.neutral φ hφ)
    (p : Fin a) (k : Fin c) :
    multiReduction .maximumf [1] ⟨2, ![a, c]⟩ src acc h hφ hacc (ix2 p k)
      = (Finset.univ : Finset (Fin b)).fold max (Ideal.ofBits φ acc) (fun q : Fin b => src (ix3 p q k)) := by
  refine (Ideal.multiReduction_maximumf_single src acc h hφ hacc (ix2 p k)).trans ?_
  have hf : (src ∘ h.lift (ix2 p k)) = fun q : Fin b => src (ix3 p q k) := funext fun q => congrArg src (lift_mid3 h p k q)
  exact congrArg (fun f => Finset.fold max (Ideal.ofBits φ acc) f (Finset.univ : Finset (Fin b))) hf

/-- The maximum over the last axis of an `[a, b]` array, at `p`: the fold of `max`, from the accumulator's value, over
    the entries `(p, k)`. -/
theorem max_last2_apply {a b : ℕ} (src : FVec Ideal ⟨2, ![a, b]⟩ φ) (acc : BitVec φ.bits)
    (h : (⟨2, ![a, b]⟩ : Shape).Reduces [1] (⟨1, ![a]⟩ : Shape)) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k : Fin b => src (ix2 p k)) := by
  refine (Ideal.multiReduction_maximumf_single src acc h hφ hacc (ix1 p)).trans ?_
  have hf : (src ∘ h.lift (ix1 p)) = fun k : Fin b => src (ix2 p k) := funext fun k => congrArg src (lift_last2 h p k)
  exact congrArg (fun f => Finset.fold max (Ideal.ofBits φ acc) f (Finset.univ : Finset (Fin b))) hf

/-! ## The pointwise transcendentals at an index -/

theorem exp_apply {s : Shape} (x : FVec Ideal s φ) (i : s.Idx) : exp x i = Ideal.exp (x i) := rfl
theorem log_apply {s : Shape} (x : FVec Ideal s φ) (i : s.Idx) : log x i = Ideal.log (x i) := rfl

end Cert.LibKeepdims
-- ==== Proof.LibDotNT.lean ====
/-
  The product of an `[M, K]` matrix with the TRANSPOSE of an `[N, K]` matrix — a `tpu.matmul` that contracts the last
  axis of both operands, no batch axis — into the zero accumulator, read at `(p, j)` at the ideal values: the sum over
  the shared axis of the products of row `p` of the left operand with row `j` of the right. (A similarity matrix
  `q kᵀ` of two blocks of row vectors is this product.)
-/
import Idealize.ShloMosaic.Lib.Pipeline.Value
import Idealize.ShloMosaic.Lib.ValueIdx
import Idealize.ShloMosaic.Lib.ValueLayout
import Idealize.ShloMosaic.PureOps.Ideal.Laws

noncomputable section

namespace Cert.LibDotNT

open Idealize.ShloMosaic Idealize.ShloMosaic.ValueIdx

/-- Rows against rows: `(A Bᵀ)(p, j) = ∑ k, A (p, k) * B (j, k)`. -/
theorem matmulNT_apply {M K N : ℕ} {φ₁ φ₂ : FTy}
    (D : DotDims ⟨2, ![M, K]⟩ ⟨2, ![N, K]⟩ ⟨2, ![M, N]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision)
    (lhs : FVec Ideal ⟨2, ![M, K]⟩ φ₁) (rhs : FVec Ideal ⟨2, ![N, K]⟩ φ₂) (p : Fin M) (j : Fin N) :
    matmul D prec lhs rhs (constant ⟨2, ![M, N]⟩ .f32 0x00000000#32) (ix2 p j)
      = ∑ k : Fin K, lhs (ix2 p k) * rhs (ix2 j k) := by
  obtain ⟨lc, rc, ln, rn, lb, rb, wf⟩ := D
  dsimp only at hlc hrc hln hrn hlb hrb
  subst hlc hrc hln hrn hlb hrb
  set D : DotDims ⟨2, ![M, K]⟩ ⟨2, ![N, K]⟩ ⟨2, ![M, N]⟩ := ⟨[1], [1], [0], [0], [], [], wf⟩ with hD
  simp only [matmul]
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p j) ((contrEquiv1 D K rfl rfl).symm k) = ix2 p k := funext fun a => Fin.ext (by
    match a with
    | ⟨0, _⟩ =>
      show (D.lhsIdx (ix2 p j) _ 0).val = p.val
      unfold DotDims.lhsIdx
      rw [dif_neg (show ¬(0 : Fin (⟨2, ![M, K]⟩ : Shape).rank) ∈ D.lhsBatch from List.not_mem_nil),
        dif_pos (show (0 : Fin (⟨2, ![M, K]⟩ : Shape).rank) ∈ D.lhsNonContracting from List.mem_singleton.mpr rfl)]
      rfl
    | ⟨1, _⟩ => exact (D.lhsIdx_val_of_single rfl (ix2 p j) _).trans hk)
  have er : D.rhsIdx (ix2 p j) ((contrEquiv1 D K rfl rfl).symm k) = ix2 j k := funext fun a => Fin.ext (by
    match a with
    | ⟨0, _⟩ =>
      show (D.rhsIdx (ix2 p j) _ 0).val = j.val
      unfold DotDims.rhsIdx
      rw [dif_neg (show ¬(0 : Fin (⟨2, ![N, K]⟩ : Shape).rank) ∈ D.rhsBatch from List.not_mem_nil),
        dif_pos (show (0 : Fin (⟨2, ![N, K]⟩ : Shape).rank) ∈ D.rhsNonContracting from List.mem_singleton.mpr rfl)]
      rfl
    | ⟨1, _⟩ => exact (D.rhsIdx_val_of_single rfl (ix2 p j) _).trans hk)
  rw [el, er]

end Cert.LibDotNT

end
-- ==== Proof.KernelBody.lean ====
/-
  One block of 256 rows through the fused body, read at an entry.

  The body receives a block `x` of 256 rows (length 256 each), the whole table `c` of 8192 codes and a one-row table
  `q` of 8192 numbers (their squared lengths, prepared before the launch). At row `p` and code `j` it stores

    exp (L j - b) * (1 / sum_l exp (L l - b)),   L l = sum_k (x_pk * 2) * c_lk - q_l,   b = max_{l < 512} L l + 64.

  Every step is either entrywise or one of four operations that mix entries: the product of the doubled block with the
  transposed code table (a sum over the shared axis), the cut to the first 512 columns, the maximum and the sum along a
  row, and the spreading of a one-column or one-row array over the block. Each is read at an entry below; together they
  say that the stored entry is the first arrangement of SoftmaxShift (`kOut`) of row `p` of `x`, the codes and `q`.
-/
import proofs.«156026_g54752243089899_cont_9to1c4b_244_30_alg».proof.Proof.Gen.KernelIdeal.Skeleton
import proofs.«156026_g54752243089899_cont_9to1c4b_244_30_alg».proof.Proof.Spec
import proofs.«156026_g54752243089899_cont_9to1c4b_244_30_alg».proof.Proof.LibColumn
import proofs.«156026_g54752243089899_cont_9to1c4b_244_30_alg».proof.Proof.LibKeepdims
import proofs.«156026_g54752243089899_cont_9to1c4b_244_30_alg».proof.Proof.LibDotNT
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.VqSoftmax

/-- The doubled block against the codes, rows against rows, at `(p, j)`: `sum_k (x_pk * 2) * c_jk`. -/
theorem scores_apply (x : FVec Ideal S256x256 .f32) (c : FVec Ideal S8192x256 .f32) (h : S256x256.ShapeCasts S256x256)
    (p : Fin 256) (j : Fin 8192) :
    matmul dot_S256x256_S8192x256_S256x8192_1_1_0_0_n_n none
        (mulf (shapeCast S256x256 x h) (broadcast S256x256 (Scalar.ofBits (F := Ideal) .f32 0x40000000#32))) c
        (constant S256x8192 .f32 0x00000000#32) (ix2 p j)
      = ∑ k : Fin 256, (x (ix2 p k) * Ideal.ofBits .f32 0x40000000#32) * c (ix2 j k) := by
  rw [Cert.LibDotNT.matmulNT_apply dot_S256x256_S8192x256_S256x8192_1_1_0_0_n_n rfl rfl rfl rfl rfl rfl]
  refine Finset.sum_congr rfl fun k _ => ?_
  rw [shapeCast_self]
  rfl

/-- A score less the code's entry of the one-row table spread over the block, at `(p, j)`. -/
theorem logit_apply (T : FVec Ideal S256x8192 .f32) (q : FVec Ideal S1x8192 .f32) (h : S1x8192.ShapeCasts S1x8192)
    (hb : S1x8192.Broadcasts S256x8192) (p : Fin 256) (j : Fin 8192) :
    subf T (broadcastTo S256x8192 (shapeCast S1x8192 q h) hb) (ix2 p j) = T (ix2 p j) - q (ix2 (0 : Fin 1) j) := by
  rw [subf_apply, broadcastTo_1b_ab_apply, shapeCast_self]

/-- The shift of row `p`: the maximum over the first 512 codes of score less table entry, plus 64. -/
theorem shift_apply (T : FVec Ideal S256x8192 .f32) (q : FVec Ideal S1x8192 .f32) (h : S1x8192.ShapeCasts S1x8192)
    (hs : S256x8192.Slices ![0, 0] S256x512) (hs' : S1x8192.Slices ![0, 0] S1x512) (hb : S1x512.Broadcasts S256x512)
    (hr : S256x512.Reduces [1] S256) (hc : S256.ShapeCasts S256x1) (p : Fin 256) (u : Fin 1) :
    addf (shapeCast S256x1
          (multiReduction .maximumf [1] S256
            (subf (extractStridedSlice S256x512 ![0, 0] T hs)
              (broadcastTo S256x512 (extractStridedSlice S1x512 ![0, 0] (shapeCast S1x8192 q h) hs') hb))
            0xFF800000#32 hr (.inl rfl) rfl) hc)
        (broadcast S256x1 (Scalar.ofBits (F := Ideal) .f32 0x42800000#32)) (ix2 p u)
      = (Finset.univ : Finset (Fin 512)).fold max (Ideal.ofBits .f32 0xFF800000#32)
            (fun l => T (ix2 p (first512 l)) - q (ix2 (0 : Fin 1) (first512 l)))
          + Ideal.ofBits .f32 0x42800000#32 := by
  rw [addf_apply, Cert.LibColumn.shapeCast_a_a1_apply, broadcast_apply, Ideal.ofBits_def]
  have hm := Cert.LibKeepdims.max_last2_apply
    (subf (extractStridedSlice S256x512 ![0, 0] T hs)
      (broadcastTo S256x512 (extractStridedSlice S1x512 ![0, 0] (shapeCast S1x8192 q h) hs') hb))
    0xFF800000#32 hr (.inl rfl) rfl p
  refine (congrArg (fun z => z + Ideal.ofBits .f32 0x42800000#32) hm).trans ?_
  refine congrArg (fun f : Fin 512 → EReal =>
    Finset.fold max (Ideal.ofBits .f32 0xFF800000#32) f Finset.univ + Ideal.ofBits .f32 0x42800000#32) ?_
  funext l
  rw [subf_apply, broadcastTo_1b_ab_apply,
    slice2_axis1_apply 0 T hs p l (first512 l) (Nat.zero_add _).symm,
    slice2_axis1_apply 0 (shapeCast S1x8192 q h) hs' (0 : Fin 1) l (first512 l) (Nat.zero_add _).symm,
    shapeCast_self]

/-- The last two steps, at `(p, j)`: the entry times the reciprocal of its row's total. -/
theorem normalize_apply (E : FVec Ideal S256x8192 .f32) (hr : S256x8192.Reduces [1] S256) (hc : S256.ShapeCasts S256x1)
    (hb : S256x1.Broadcasts S256x8192) (p : Fin 256) (j : Fin 8192) :
    mulf E (broadcastTo S256x8192
        (divf (broadcast S256x1 (Scalar.ofBits (F := Ideal) .f32 0x3F800000#32))
          (shapeCast S256x1 (multiReduction .add [1] S256 E 0x00000000#32 hr (.inl rfl) rfl) hc)) hb) (ix2 p j)
      = E (ix2 p j) * Ideal.div (Ideal.ofBits .f32 0x3F800000#32) (∑ l : Fin 8192, E (ix2 p l)) := by
  rw [mulf_apply, Cert.LibColumn.broadcastTo_a1_ab_apply, divf_apply, Cert.LibColumn.shapeCast_a_a1_apply,
    broadcast_apply, Ideal.ofBits_def]
  exact congrArg (fun z => E (ix2 p j) * Ideal.div (Ideal.ofBits .f32 0x3F800000#32) z)
    (Cert.LibKeepdims.sum_last2_apply E 0x00000000#32 hr (.inl rfl) rfl p)

/-! ## The body's intermediate arrays, named -/

/-- The doubled block against the codes. -/
def scores (x : FVec Ideal S256x256 .f32) (c : FVec Ideal S8192x256 .f32) : FVec Ideal S256x8192 .f32 :=
  matmul dot_S256x256_S8192x256_S256x8192_1_1_0_0_n_n none
    (mulf (shapeCast S256x256 x shapeCasts_S256x256_S256x256)
      (broadcast S256x256 (Scalar.ofBits (F := Ideal) .f32 0x40000000#32))) c
    (constant S256x8192 .f32 0x00000000#32)

/-- The logits of the block: score less the code's table entry. -/
def logits (x : FVec Ideal S256x256 .f32) (c : FVec Ideal S8192x256 .f32) (q : FVec Ideal S1x8192 .f32) :
    FVec Ideal S256x8192 .f32 :=
  subf (scores x c)
    (broadcastTo S256x8192 (shapeCast S1x8192 q shapeCasts_S1x8192_S1x8192) broadcasts_S1x8192_S256x8192)

/-- The shift, one per row, as a column. -/
def shiftCol (x : FVec Ideal S256x256 .f32) (c : FVec Ideal S8192x256 .f32) (q : FVec Ideal S1x8192 .f32) :
    FVec Ideal S256x1 .f32 :=
  addf (shapeCast S256x1
      (multiReduction .maximumf [1] S256
        (subf (extractStridedSlice S256x512 ![0, 0] (scores x c) slices_S256x8192_o0_0_S256x512)
          (broadcastTo S256x512
            (extractStridedSlice S1x512 ![0, 0] (shapeCast S1x8192 q shapeCasts_S1x8192_S1x8192) slices_S1x8192_o0_0_S1x512)
            broadcasts_S1x512_S256x512))
        0xFF800000#32 reduces_S256x512_S256 (.inl rfl) rfl) shapeCasts_S256_S256x1)
    (broadcast S256x1 (Scalar.ofBits (F := Ideal) .f32 0x42800000#32))

/-- The exponentials of the shifted logits. -/
def expBlock (x : FVec Ideal S256x256 .f32) (c : FVec Ideal S8192x256 .f32) (q : FVec Ideal S1x8192 .f32) :
    FVec Ideal S256x8192 .f32 :=
  exp (subf (logits x c q) (broadcastTo S256x8192 (shiftCol x c q) broadcasts_S256x1_S256x8192))

set_option maxRecDepth 65536 in
/-- The stored block is the exponentials, each row scaled by the reciprocal of its total. -/
theorem pay_eq (x : FVec Ideal S256x256 .f32) (c : FVec Ideal S8192x256 .f32) (q : FVec Ideal S1x8192 .f32) :
    k0_pay1 (F := Ideal) x c q
      = mulf (expBlock x c q) (broadcastTo S256x8192
          (divf (broadcast S256x1 (Scalar.ofBits (F := Ideal) .f32 0x3F800000#32))
            (shapeCast S256x1 (multiReduction .add [1] S256 (expBlock x c q) 0x00000000#32 reduces_S256x8192_S256 (.inl rfl) rfl)
              shapeCasts_S256_S256x1)) broadcasts_S256x1_S256x8192) := rfl

section Entry
variable (x : FVec Ideal S256x256 .f32) (c : FVec Ideal S8192x256 .f32) (q : FVec Ideal S1x8192 .f32) (p : Fin 256)

theorem logits_apply (l : Fin 8192) :
    logits x c q (ix2 p l)
      = kLogit (fun k : Fin 256 => x (ix2 p k)) (fun (l : Fin 8192) (k : Fin 256) => c (ix2 l k))
          (fun l : Fin 8192 => q (ix2 (0 : Fin 1) l)) l := by
  unfold logits scores
  rw [logit_apply, scores_apply]
  rfl

theorem shiftCol_apply (u : Fin 1) :
    shiftCol x c q (ix2 p u)
      = kShift first512 (fun k : Fin 256 => x (ix2 p k)) (fun (l : Fin 8192) (k : Fin 256) => c (ix2 l k))
          (fun l : Fin 8192 => q (ix2 (0 : Fin 1) l)) := by
  unfold shiftCol scores
  rw [shift_apply]
  simp only [scores_apply]
  rfl

theorem expBlock_apply (l : Fin 8192) :
    expBlock x c q (ix2 p l)
      = kExp first512 (fun k : Fin 256 => x (ix2 p k)) (fun (l : Fin 8192) (k : Fin 256) => c (ix2 l k))
          (fun l : Fin 8192 => q (ix2 (0 : Fin 1) l)) l := by
  unfold expBlock
  rw [Cert.LibKeepdims.exp_apply, subf_apply, Cert.LibColumn.broadcastTo_a1_ab_apply, logits_apply, shiftCol_apply]
  rfl

/-- THE STORED ENTRY at row `p`, code `j`: the first arrangement of the soft assignment, of row `p` of the block, the
    codes and the table. -/
theorem pay_apply (j : Fin 8192) :
    k0_pay1 (F := Ideal) x c q (ix2 p j)
      = kOut first512 (fun k : Fin 256 => x (ix2 p k)) (fun (l : Fin 8192) (k : Fin 256) => c (ix2 l k))
          (fun l : Fin 8192 => q (ix2 (0 : Fin 1) l)) j := by
  rw [pay_eq, normalize_apply]
  simp only [expBlock_apply]
  rfl

end Entry

end Cert.KernelIdeal.Body

end
-- ==== Proof.KernelValue.lean ====
/-
  From blocks to the whole array.

  The launch walks 16 grid points. Point `t` is handed rows `256 t … 256 t + 255` of the matrix of row vectors, the whole
  code table and the whole one-row table of squared lengths, and writes back rows `256 t … 256 t + 255` of the result.
  Before the launch the host lays the three-dimensional input out as the 4096-by-256 matrix and prepares the table
  of squared lengths.

  So what point `t` writes back is block `t` of the one function `G` (Spec) of the matrix and the codes: an entry of the
  block at `(p, j)` is the body's stored entry for row `p` of the block, which is row `256 t + p` of the matrix. The 16
  blocks of rows cover every row, so the result array after the run is `G`.
-/
import proofs.«156026_g54752243089899_cont_9to1c4b_244_30_alg».proof.Proof.Gen.KernelIdeal.Value
import proofs.«156026_g54752243089899_cont_9to1c4b_244_30_alg».proof.Proof.KernelBody
import proofs.«156026_g54752243089899_cont_9to1c4b_244_30_alg».proof.Proof.Spec
import Idealize.ShloMosaic.Lib.StableHlo.Run
import Idealize.ShloMosaic.Lib.Pipeline.Value

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.VqSoftmax
open Idealize.ShloMosaic.Pipeline (Dat)

variable (m : (ℓ : Loc nD τ sig) → Buf (Elt Ideal) ℓ) (ρ : Dev nD → PrngReg)

/-! ## The arrays the launch finds -/

/-- The matrix of row vectors: the input laid out as 4096 rows. -/
theorem V_rows (c : Dev nD) :
    (V m c main_v0 : S4096x256.Idx → EReal) = shapeCast S4096x256 (m ((c : Thread nD τ).loc main_arg0)) shapeCasts_S4x1024x256_S4096x256 := by
  dsimp only [V, hostOps0]; after_results <;> rfl

/-- The table of squared lengths: the square of the codes summed along rows from zero, as one row. -/
theorem V_table (c : Dev nD) :
    (V m c main_v3 : S1x8192.Idx → EReal)
      = broadcastInDim S1x8192 ![1] bcast_S8192_S1x8192_1
          (Host.reduceAdd (F := Ideal) (mulf (m ((c : Thread nD τ).loc main_arg1)) (m ((c : Thread nD τ).loc main_arg1)))
            (constant (F := Ideal) S_ .f32 0x00000000#32) reducesTo_S8192x256_S8192_d1 h_S_) := by
  dsimp only [V, hostOps0]; after_results <;> rfl

/-! ## The index maps over the grid -/

theorem hz : (![0, 0] : Fin 2 → Nat) = fun _ => 0 := funext fun a => by fin_cases a <;> rfl

/-- The rows window moves with the result window; the codes and the table stay at block 0; the result window's row
    block is one of 16 and its column block is 0. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 15 :=
  (by decide +kernel : ∀ t : Fin grid0.N, _)

/-- Every one of the 16 row blocks is some point's. -/
theorem idx_onto : ∀ q0 : Fin 16, ∃ t : Fin cfg0.N, win0_3.index t = ![q0.val, 0] :=
  (by decide +kernel : ∀ q0 : Fin 16, ∃ t : Fin grid0.N, win0_3.index t = ![q0.val, 0])

/-! ## One entry of one block -/

/-- The body's stored entry, for a block that holds rows `256 b …` of the matrix, the codes and their table, is `G` at
    the corresponding entry of the whole array. -/
theorem block_entry (X : FVec Ideal S4096x256 .f32) (C : FVec Ideal S8192x256 .f32)
    (x : FVec Ideal S256x256 .f32) (cb : FVec Ideal S8192x256 .f32) (q : FVec Ideal S1x8192 .f32)
    (b : ℕ) (hb : b ≤ 15)
    (hx : ∀ (p : Fin 256) (k : Fin 256),
      x (ix2 p k) = X (ix2 (⟨b * 256 + p.val, by have := p.isLt; omega⟩ : Fin 4096) k))
    (hc : ∀ (l : Fin 8192) (k : Fin 256), cb (ix2 l k) = C (ix2 l k))
    (hq : ∀ l : Fin 8192, q (ix2 (0 : Fin 1) l) = codeSq (codes C) l)
    (y : S256x8192.Idx) (i : S4096x8192.Idx) (hi0 : (i 0).val = b * 256 + (y 0).val) (hi1 : (i 1).val = (y 1).val) :
    k0_pay1 (F := Ideal) x cb q y = G X C i := by
  obtain ⟨p, j, rfl⟩ : ∃ (p : Fin 256) (j : Fin 8192), y = ix2 p j := ⟨y 0, y 1, eq_ix2 y⟩
  rw [Body.pay_apply]
  have hi : i = ix2 (⟨b * 256 + p.val, by have := p.isLt; omega⟩ : Fin 4096) j := by
    funext a; apply Fin.ext
    match a with
    | ⟨0, _⟩ => exact hi0
    | ⟨1, _⟩ => exact hi1
  rw [hi, G_ix2]
  unfold assign rowOf
  have e1 : (fun k : Fin 256 => x (ix2 p k))
      = fun k => X (ix2 (⟨b * 256 + p.val, by have := p.isLt; omega⟩ : Fin 4096) k) := funext (hx p)
  have e2 : (fun (l : Fin 8192) (k : Fin 256) => cb (ix2 l k)) = codes C := funext fun l => funext (hc l)
  have e3 : (fun l : Fin 8192 => q (ix2 (0 : Fin 1) l)) = codeSq (codes C) := funext hq
  rw [e1, e2, e3]

/-! ## What a point writes back, the cover, the array -/

/-- What point `t` writes back is block `t` of `G` of the matrix of row vectors and the codes. -/
theorem flushed_eq (c : Dev nD) (t : Fin cfg0.N) :
    (dats m 0 c).flushed 3 t
      = ((cfg0.win 3).blk t).view.read (Elt Ideal) (G (shapeCast S4096x256 (m ((c : Thread nD τ).loc main_arg0)) shapeCasts_S4x1024x256_S4096x256) (m ((c : Thread nD τ).loc main_arg1))) := by
  rw [Cert.KernelIdeal.Value.flushed3]
  unfold out0_3
  rw [View.canon_unit_zero hz]
  simp only [View.ld_unit_zero (S := S256x256) hz, View.ld_unit_zero (S := S8192x256) hz,
    View.ld_unit_zero (S := S1x8192) hz]
  obtain ⟨e0, e1, e2, e3, e4, e5, e6, e7⟩ := idx_facts t
  funext y
  show k0_pay1 (F := Ideal) (iblk m c 0 t) (iblk m c 1 t) (iblk m c 2 t) y
    = G (shapeCast S4096x256 (m ((c : Thread nD τ).loc main_arg0)) shapeCasts_S4x1024x256_S4096x256) (m ((c : Thread nD τ).loc main_arg1)) (((cfg0.win 3).blk t).view.emb y)
  refine block_entry _ _ (iblk m c 0 t) (iblk m c 1 t) (iblk m c 2 t) (win0_3.index t (0 : Fin 2)) e7 ?_ ?_ ?_ y _ ?_ ?_
  · intro p k
    show V m c main_v0 (((cfg0.win 0).blk t).view.emb (ix2 p k)) = _
    rw [V_rows m c]
    refine congrArg _ (funext fun a => Fin.ext ?_)
    match a with
    | ⟨0, _⟩ =>
      show win0_0.index t (0 : Fin 2) * 256 + 1 * p.val = win0_3.index t (0 : Fin 2) * 256 + p.val
      omega
    | ⟨1, _⟩ =>
      show win0_0.index t (1 : Fin 2) * 256 + 1 * k.val = k.val
      omega
  · intro l k
    show V m c main_arg1 (((cfg0.win 1).blk t).view.emb (ix2 l k)) = _
    rw [V_main_arg1 m c]
    refine congrArg _ (funext fun a => Fin.ext ?_)
    match a with
    | ⟨0, _⟩ =>
      show win0_1.index t (0 : Fin 2) * 8192 + 1 * l.val = l.val
      omega
    | ⟨1, _⟩ =>
      show win0_1.index t (1 : Fin 2) * 256 + 1 * k.val = k.val
      omega
  · intro l
    show V m c main_v3 (((cfg0.win 2).blk t).view.emb (ix2 (0 : Fin 1) l)) = _
    have he : ((cfg0.win 2).blk t).view.emb (ix2 (0 : Fin 1) l) = ix2 (0 : Fin 1) l := by
      funext a; apply Fin.ext
      match a with
      | ⟨0, _⟩ =>
        show win0_2.index t (0 : Fin 2) * 1 + 1 * 0 = 0
        omega
      | ⟨1, _⟩ =>
        show win0_2.index t (1 : Fin 2) * 8192 + 1 * l.val = l.val
        omega
    rw [he, V_table m c]
    exact codeSq_row_apply _ _ _ _ l
  · show win0_3.index t (0 : Fin 2) * 256 + 1 * (y 0).val = win0_3.index t (0 : Fin 2) * 256 + (y 0).val
    omega
  · show win0_3.index t (1 : Fin 2) * 8192 + 1 * (y 1).val = (y 1).val
    omega

/-- An index of the result array is in point `t`'s block iff each coordinate is in the block's range on its axis. -/
theorem mem_blk (t : Fin cfg0.N) (i : S4096x8192.Idx) :
    i ∈ ((cfg0.win 3).blk t).view.set ↔ ∀ a : Fin 2, win0_3.index t a * S256x8192.size a ≤ (i a).val
      ∧ (i a).val < win0_3.index t a * S256x8192.size a + S256x8192.size a := by
  show i ∈ ((View.whole main_v4).slice (win0_3.rect t)).set ↔ _
  rw [View.set_slice_whole, Rect.mem_set_unit]
  exact Iff.rfl

/-- Every entry of the result array is in some point's block: row `r` is in the block of point `r / 256`. -/
theorem cover (i : S4096x8192.Idx) :
    ∃ t : Fin cfg0.N, (cfg0.win 3).flush t = true ∧ i ∈ ((cfg0.win 3).blk t).view.set := by
  have hi0 : (i 0).val < 4096 := (i 0).isLt
  have hi1 : (i 1).val < 8192 := (i 1).isLt
  obtain ⟨t, ht⟩ := idx_onto ⟨(i 0).val / 256, by omega⟩
  have q0 : win0_3.index t (0 : Fin 2) = (i 0).val / 256 := congrFun ht 0
  have q1 : win0_3.index t (1 : Fin 2) = 0 := congrFun ht 1
  refine ⟨t, flush0_3 t, ?_⟩
  rw [mem_blk]
  intro a
  match a with
  | ⟨0, _⟩ =>
    show win0_3.index t (0 : Fin 2) * 256 ≤ (i 0).val ∧ (i 0).val < win0_3.index t (0 : Fin 2) * 256 + 256
    omega
  | ⟨1, _⟩ =>
    show win0_3.index t (1 : Fin 2) * 8192 ≤ (i 1).val ∧ (i 1).val < win0_3.index t (1 : Fin 2) * 8192 + 8192
    omega

/-- The result array after the run is `G` of the matrix of row vectors and the codes. -/
theorem final (c : Dev nD) :
    (dats m 0 c).arrAt 3 cfg0.N = G (shapeCast S4096x256 (m ((c : Thread nD τ).loc main_arg0)) shapeCasts_S4x1024x256_S4096x256) (m ((c : Thread nD τ).loc main_arg1)) :=
  (dats m 0 c).arrAt_eq_of_cover 3 _ (fun t _ => flushed_eq m c t) cover

/-- The run: every weakly fair execution ends with the result array at `G` and the inputs unchanged. -/
theorem run : θ_run defs (onTc (τ := τ) (main (F := Ideal))) ⟨m, fun _ => 0, ρ⟩ fun r => ∀ c : Dev nD,
      r.2.mem ((c : Thread nD τ).loc main_v4) = G (shapeCast S4096x256 (m ((c : Thread nD τ).loc main_arg0)) shapeCasts_S4x1024x256_S4096x256) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Cert.KernelIdeal.Value.run_blocks m ρ)

end Cert.KernelIdeal.Whole

end
-- ==== Proof.RefValue.lean ====
/-
  The reference at an entry.

  The reference lays the input out as the 4096-by-256 matrix `X`, and at `(r, j)` computes, in order: the squared length
  of code `j` plus the squared length of row `r`; twice the inner product of row `r` with code `j` (through the
  transposed code table); their difference, negated — the negated squared distance; the maximum of that over all
  8192 codes (folded from `-∞` and compared with `-∞` once more); the exponential of the difference; the row's total of
  those exponentials; the quotient. Each step is read at an index below; together they say that the reference's
  entry is the second arrangement of SoftmaxShift (`rOut`) of row `r` of `X` against the codes.
-/
import proofs.«156026_g54752243089899_cont_9to1c4b_244_30_alg».proof.Proof.Gen.ReferenceIdeal.Read
import proofs.«156026_g54752243089899_cont_9to1c4b_244_30_alg».proof.Proof.Spec
import proofs.«156026_g54752243089899_cont_9to1c4b_244_30_alg».proof.Proof.LibKeepdims
import Idealize.ShloMosaic.Lib.ValueIdx
import Idealize.ShloMosaic.Lib.Pipeline.Value
import Idealize.ShloMosaic.PureOps.Reduce
import Idealize.ShloMosaic.PureOps.Ideal.Laws

noncomputable section

namespace Cert.ReferenceIdeal.RefValue

open Cert.ReferenceIdeal Cert.ReferenceIdeal.Gen Cert.ReferenceIdeal.Read Idealize.ShloMosaic
open Idealize.ShloMosaic.ValueIdx Cert.VqSoftmax

variable (x0 : (⟨S4x1024x256, .f32⟩ : BufTy).Contents (Elt Ideal)) (x1 : (⟨S8192x256, .f32⟩ : BufTy).Contents (Elt Ideal))

/-- The inner product of row `r` with code `l` (the second operand is the transposed code table). -/
theorem dot_apply (r : Fin 4096) (l : Fin 8192) :
    val_main_v11 (F := Ideal) x0 x1 (ix2 r l) = ∑ k : Fin 256, (rowOf (val_main_v0 (F := Ideal) x0) r) k * codes x1 l k := by
  rw [val_main_v11_apply]
  refine Finset.sum_congr rfl fun k _ => ?_
  rw [val_main_v10_apply]
  have e1 : lidx_main_v11 (ix2 r l) k = ix2 r k :=
    funext fun a => Fin.ext (by match a with | ⟨0, _⟩ => rfl | ⟨1, _⟩ => rfl)
  have e2 : idx_main_v10 (ridx_main_v11 (ix2 r l) k) = ix2 l k :=
    funext fun a => Fin.ext (by match a with | ⟨0, _⟩ => rfl | ⟨1, _⟩ => rfl)
  rw [e1, e2]
  rfl

/-- The squared length of code `l`, spread over the rows. -/
theorem csq_apply (r : Fin 4096) (l : Fin 8192) :
    val_main_v7 (F := Ideal) x1 (ix2 r l) = codeSq (codes x1) l := by
  rw [val_main_v7_apply]
  have e : idx_main_v7 (ix2 r l) = ix2 (0 : Fin 1) l :=
    funext fun a => Fin.ext (by match a with | ⟨0, _⟩ => rfl | ⟨1, _⟩ => rfl)
  rw [e]
  unfold val_main_v6 val_main_v2 val_main_v1 val_main_cst
  exact codeSq_row_apply x1 _ _ _ l

/-- The squared length of row `r`, summed from zero, spread over the codes. -/
theorem xsq_apply (r : Fin 4096) (l : Fin 8192) :
    val_main_v8 (F := Ideal) x0 (ix2 r l)
      = Ideal.ofBits .f32 0x00000000#32 + ∑ k : Fin 256, (rowOf (val_main_v0 (F := Ideal) x0) r) k * (rowOf (val_main_v0 (F := Ideal) x0) r) k := by
  rw [val_main_v8_apply, val_main_v5_apply, val_main_v4_apply, val_main_cst_0_apply, Ideal.ofBits_def]
  refine congrArg (_ + ·) (Finset.sum_congr rfl fun k _ => ?_)
  rw [val_main_v3_apply]
  have e : idx_main_v4 (idx_main_v5 (idx_main_v8 (ix2 r l))) k = ix2 r k :=
    funext fun a => Fin.ext (by match a with | ⟨0, _⟩ => rfl | ⟨1, _⟩ => rfl)
  rw [e]
  rfl

/-- The negated squared distance from row `r` to code `l`. -/
theorem logit_apply (r : Fin 4096) (l : Fin 8192) :
    val_main_v16 (F := Ideal) x0 x1 (ix2 r l) = rLogit (rowOf (val_main_v0 (F := Ideal) x0) r) (codes x1) l := by
  rw [val_main_v16_apply, val_main_v14_apply, val_main_v9_apply, val_main_v13_apply, csq_apply, xsq_apply, dot_apply,
    val_main_v12_apply, val_main_cst_1_apply, val_main_v15_apply, val_main_cst_2_apply]
  simp only [Ideal.ofBits_def, Ideal.mulf_def, Ideal.subf_def, Ideal.addf_def]
  rfl

/-- The shift of row `r`: the maximum of the negated squared distances over all codes. -/
theorem shift_apply (r : Fin 4096) :
    val_main_v19 (F := Ideal) x0 x1 (ix1 r) = rShift (rowOf (val_main_v0 (F := Ideal) x0) r) (codes x1) := by
  have hR : S4096x8192.Reduces [1] S4096 := by decide
  rw [val_main_v19_apply, val_main_v18_apply, val_main_cst_4_apply]
  unfold val_main_v17
  rw [Host.reduce_eq_fold_single FloatOps.maximumf _ _ reducesTo_S4096x8192_S4096_d1 hR h_S_ (ix1 r)]
  have hf : (val_main_v16 (F := Ideal) x0 x1 ∘ hR.lift (ix1 r))
      = fun l : Fin 8192 => rLogit (rowOf (val_main_v0 (F := Ideal) x0) r) (codes x1) l := by
    funext l
    rw [Function.comp_apply, Cert.LibKeepdims.lift_last2 hR r l]
    exact logit_apply x0 x1 r ⟨l.val, l.isLt⟩
  rw [hf, val_main_cst_3_apply]
  simp only [Ideal.ofBits_def, Ideal.maximumf_def]
  rfl

/-- The exponential of the shifted negated squared distance. -/
theorem exp_apply (r : Fin 4096) (l : Fin 8192) :
    val_main_v23 (F := Ideal) x0 x1 (ix2 r l) = rExp (rowOf (val_main_v0 (F := Ideal) x0) r) (codes x1) l := by
  rw [val_main_v23_apply, val_main_v22_apply, val_main_v21_apply, val_main_v20_apply, logit_apply]
  have e : idx_main_v20 (idx_main_v21 (ix2 r l)) = ix1 r :=
    funext fun a => Fin.ext (by match a with | ⟨0, _⟩ => rfl)
  rw [e, shift_apply]
  rfl

/-- THE REFERENCE'S ENTRY at row `r`, code `j`: the second arrangement of the soft assignment. -/
theorem out_apply (r : Fin 4096) (j : Fin 8192) :
    val_main_v27 (F := Ideal) x0 x1 (ix2 r j) = rOut (rowOf (val_main_v0 (F := Ideal) x0) r) (codes x1) j := by
  rw [val_main_v27_apply, val_main_v26_apply, val_main_v25_apply, val_main_v24_apply, exp_apply,
    val_main_cst_5_apply, Ideal.ofBits_def, Ideal.hostDivf_def]
  have e : ∀ k : Fin 8192, idx_main_v24 (idx_main_v25 (idx_main_v26 (ix2 r j))) k = ix2 r k := fun k =>
    funext fun a => Fin.ext (by match a with | ⟨0, _⟩ => rfl | ⟨1, _⟩ => rfl)
  simp only [e, exp_apply]
  rfl

/-- When every entry of both inputs is a real number, the reference's whole result is `G` of the matrix of row vectors
    and the codes: entry by entry the second arrangement equals the first (SoftmaxShift `kOut_eq_rOut`). -/
theorem result_eq_G (h0 : ∀ i, ∃ r : ℝ, x0 i = (r : EReal)) (h1 : ∀ i, ∃ r : ℝ, x1 i = (r : EReal)) :
    val_main_v27 (F := Ideal) x0 x1 = G (val_main_v0 (F := Ideal) x0) x1 := by
  funext i
  obtain ⟨r, j, rfl⟩ : ∃ (r : Fin 4096) (j : Fin 8192), i = ix2 r j := ⟨i 0, i 1, eq_ix2 i⟩
  rw [out_apply, G_ix2]
  unfold assign
  refine (kOut_eq_rOut first512 (by norm_num) _ _ (fun k => ?_) (fun l k => h1 _) j).symm
  exact shapeCast_entry_real x0 _ h0 _

end Cert.ReferenceIdeal.RefValue

end
-- ==== Proof.Finite.lean ====
/-
  From the precondition to real entries.

  The precondition says, of each of the two input arrays, that every entry's absolute value is below `+∞` (a conjunction
  over all entries, and the conjunction of the two). An extended real whose absolute value `max a (-a)` is below `+∞` is
  neither `+∞` nor `-∞`: it is a real number. So under the precondition every entry of both arrays is a real number,
  which is what lets the soft assignment's algebra be done on the reals.
-/
import proofs.«156026_g54752243089899_cont_9to1c4b_244_30_alg».proof.Pre_finite_inputs
import proofs.«156026_g54752243089899_cont_9to1c4b_244_30_alg».proof.Proof.LibRealSoftmax
import Idealize.ShloMosaic.Lib.ReduceAll
import Idealize.ShloMosaic.Lib.ValueIdx
import Idealize.ShloMosaic.PureOps.Ideal.Laws

noncomputable section

namespace Cert.Finite

open Idealize.ShloMosaic Cert.Pre_finite_inputs Cert.LibRealSoftmax

instance : Subsingleton S_.Idx := ⟨fun a b => funext fun d => d.elim0⟩

variable [Cert.Pre_finite_inputs.Facts]

/-- Under the precondition every entry of both input arrays is a real number. -/
theorem entries_real (a0 : FVec Ideal S4x1024x256 .f32) (a1 : FVec Ideal S8192x256 .f32)
    (h : Cert.Pre_finite_inputs.fn (F := Ideal) a0 a1 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn] at h0
  obtain ⟨h1, h2⟩ := IntOp.andi_eq_one.1 h0
  refine ⟨fun i => real_of_test (a0 i) ?_, fun i => real_of_test (a1 i) ?_⟩
  · exact Host.reduce_andi_all _ _ _ _ _ h1 i
  · exact Host.reduce_andi_all _ _ _ _ _ h2 i

end Cert.Finite

end
-- ==== Proof.lean ====
/-
  A codebook soft assignment: every one of 4096 row vectors (the input laid out as a 4096-by-256 matrix) against every
  one of 8192 codes, `out (r, j) = softmax_j (-|x_r - c_j|^2)`.

  The kernel never forms the distance. It drops the row's own squared length, which is the same for every code of a
  row, and computes the logits `2 <x_r, c_j> - |c_j|^2` block by block (16 blocks of 256 rows, the code table and the
  table of squared code lengths resident); it subtracts a cheap per-row shift — the maximum over the first 512 codes
  plus 64 — before exponentiating, and multiplies by the reciprocal of the row total. The reference forms the full
  negated squared distance, subtracts the row's true maximum, exponentiates and divides by the row total.

  A softmax does not change when one number is subtracted from all its logits, so the dropped `|x_r|^2` and the two
  different shifts cancel: on real numbers the two programs compute the same array. The extended reals add nothing
  here once the precondition is used: every input entry is a real number, hence so are all sums, maxima and
  exponentials, and every row total is positive.

  The parts: SoftmaxShift (the two arrangements and their equality on real entries), Spec (the whole array `G` as one
  function of the two inputs, and the table of squared code lengths read at an entry), KernelBody (the body's stored
  entry), KernelValue (the 16 blocks are the 16 row bands of `G`, and cover the array), RefValue (the reference's
  entry, and the reference's array is `G`), Finite (the precondition gives real entries). The three runs are the
  generated ones; the idealization rewrote nothing, so the kernel as printed is its own idealization.
-/
import proofs.«156026_g54752243089899_cont_9to1c4b_244_30_alg».proof.Defs
import proofs.«156026_g54752243089899_cont_9to1c4b_244_30_alg».proof.Proof.Gen.Kernel
import proofs.«156026_g54752243089899_cont_9to1c4b_244_30_alg».proof.Proof.Gen.Kernel.Skeleton
import proofs.«156026_g54752243089899_cont_9to1c4b_244_30_alg».proof.Proof.Gen.Kernel.Launch
import proofs.«156026_g54752243089899_cont_9to1c4b_244_30_alg».proof.Proof.Gen.Kernel.Points
import proofs.«156026_g54752243089899_cont_9to1c4b_244_30_alg».proof.Proof.Gen.Kernel.Frame
import proofs.«156026_g54752243089899_cont_9to1c4b_244_30_alg».proof.Proof.Gen.KernelIdeal
import proofs.«156026_g54752243089899_cont_9to1c4b_244_30_alg».proof.Proof.Gen.KernelIdeal.Skeleton
import proofs.«156026_g54752243089899_cont_9to1c4b_244_30_alg».proof.Proof.Gen.KernelIdeal.Launch
import proofs.«156026_g54752243089899_cont_9to1c4b_244_30_alg».proof.Proof.Gen.KernelIdeal.Points
import proofs.«156026_g54752243089899_cont_9to1c4b_244_30_alg».proof.Proof.Gen.KernelIdeal.Frame
import proofs.«156026_g54752243089899_cont_9to1c4b_244_30_alg».proof.Proof.Gen.ReferenceIdeal
import proofs.«156026_g54752243089899_cont_9to1c4b_244_30_alg».proof.Proof.Gen.Pre_finite_inputs
import proofs.«156026_g54752243089899_cont_9to1c4b_244_30_alg».proof.Proof.Gen.KernelIdeal.Value
import proofs.«156026_g54752243089899_cont_9to1c4b_244_30_alg».proof.Proof.Gen.ReferenceIdeal.Run
import proofs.«156026_g54752243089899_cont_9to1c4b_244_30_alg».proof.Proof.Gen.ReferenceIdeal.Read
import proofs.«156026_g54752243089899_cont_9to1c4b_244_30_alg».proof.Proof.KernelValue
import proofs.«156026_g54752243089899_cont_9to1c4b_244_30_alg».proof.Proof.RefValue
import proofs.«156026_g54752243089899_cont_9to1c4b_244_30_alg».proof.Proof.Finite
import Idealize.ShloMosaic.Adequacy
import Idealize.ShloMosaic.Init

noncomputable section

namespace Cert.Proof

open Idealize.ShloMosaic Idealize.ShloMosaic.TcCoe Idealize.SL.Sem

/-- The kernel as printed runs, and leaves its inputs as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference runs and leaves its inputs as they were: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From inputs that agree and are finite, both programs end with the same array: the kernel's is `G` of the matrix of
    row vectors and the codes (its 16 row bands), and so is the reference's, since finite inputs have real entries and
    on real entries the two arrangements of the softmax agree. -/
theorem algebraic : Cert.algebraic_KernelIdeal_ReferenceIdeal := by
  intro m ρ m' ρ' hpre hagree
  refine ⟨_, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v27_eq, (hagree c).1, (hagree c).2]
  obtain ⟨h0, h1⟩ := Cert.Finite.entries_real _ _ (hpre c)
  exact Cert.ReferenceIdeal.RefValue.result_eq_G _ _ h0 h1

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
